-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x64 : Shape := ⟨2, ![1024, 64]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16384x1024 .f32) (main_arg1 : FVec F S1024x64 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16384x1024 : Shape := ⟨2, ![16384, 1024]⟩
abbrev S1024x64 : Shape := ⟨2, ![1024, 64]⟩
abbrev S_ : Shape := ⟨0, ![]⟩
abbrev S1024 : Shape := ⟨1, ![1024]⟩
abbrev S1x1024 : Shape := ⟨2, ![1, 1024]⟩
abbrev S16384 : Shape := ⟨1, ![16384]⟩
abbrev S2048x1024 : Shape := ⟨2, ![2048, 1024]⟩
abbrev S2048 : Shape := ⟨1, ![2048]⟩
abbrev S2048x64 : Shape := ⟨2, ![2048, 64]⟩
abbrev S16384x1 : Shape := ⟨2, ![16384, 1]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x64, .f32⟩
  | .hbm, ⟨2, _⟩ => ⟨S1024x64, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S16384, .f32⟩
  | .hbm, ⟨7, _⟩ => ⟨S16384x1, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1x1024, .f32⟩
  | .local _ .vmem, ⟨4, _⟩ => ⟨S2048, .f32⟩
  | .local _ .vmem, ⟨5, _⟩ => ⟨S2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x64_S1024_d1 : S1024x64.ReducesTo [1] S1024
  h_S_ : 0 < S_.numel
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  inb_S1024x64_S1024x64_0_0 : ∀ a, (![0, 0] : Fin 2 → Nat) a + S1024x64.size a ≤ S1024x64.size a
  h_S1024x64 : 0 < S1024x64.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  reduces_S2048x64_S2048 : S2048x64.Reduces [1] S2048
  broadcasts_S1x1024_S2048x1024 : S1x1024.Broadcasts S2048x1024
  reduces_S2048x1024_S2048 : S2048x1024.Reduces [1] S2048
  inb_S2048_S2048_0 : ∀ a, (![0] : Fin 1 → Nat) a + S2048.size a ≤ S2048.size a
  h_S2048 : 0 < S2048.numel
  shapeCasts_S16384_S16384x1 : S16384.ShapeCasts S16384x1
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S16384.size a
  hwx0_3 : ∀ i : grid0.Coords, EltTy.bits .f32 = 32 ∨ (Rect.block (s := S16384) S2048.size (cc0_transform_3 i) (hinb0_3 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x64 : Shape := ⟨2, ![1024, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x64, .f32⟩
  | .hbm, ⟨2, _⟩ => ⟨S16384x64, .f32⟩
  | .hbm, ⟨3, _⟩ => ⟨S16384x64, .f32⟩
  | .hbm, ⟨4, _⟩ => ⟨S16384x1024, .f32⟩
  | .hbm, ⟨5, _⟩ => ⟨S1024x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x1024_S1024x64_S16384x64_1_0_0_1_n_n_wf : DotDims.WF S16384x1024 S1024x64 S16384x64 [1] [0] [0] [1] [] []

variable [Facts₀]

def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf

class Facts : Prop extends Facts₀ where

variable [Facts]
-- ==== Proof.CrossLaw.lean ====
/-
  The factorization-machine cross term, as mathematics.

  For a row `x_b` of the batch (1024 features) and the factor matrix `v` (1024 × 64) write
  `p_k = Σ_i x_{b,i} · v_{i,k}`. The result at row `b` is half of

      Σ_k ( p_k² − Σ_i x_{b,i}² · v_{i,k}² )            (the sum over factors of "square of sum minus sum of squares")

  and the same number can be arranged as

      ( Σ_k p_k² ) − Σ_i x_{b,i}² · ( Σ_k v_{i,k}² )     (the second term through the row sums of `v²`).

  The two agree over the reals: a finite sum of differences is the difference of the sums, the double sum
  over (i, k) may be taken in either order, and `x_{b,i}²` is a common factor of the inner sum over `k`.
  On the extended reals these three steps fail at the infinities, so the law is stated for arrays all of
  whose entries are real numbers.
-/
import Idealize.ShloMosaic.PureOps.Ideal
import Idealize.ShloMosaic.Lib.ValueIdx

noncomputable section

open scoped BigOperators

namespace Cert.CrossTerm

open Idealize.ShloMosaic Idealize.ShloMosaic.ValueIdx

/-- The batch of rows, the factor matrix, and the column of results. -/
abbrev SX : Shape := ⟨2, ![16384, 1024]⟩
abbrev SV : Shape := ⟨2, ![1024, 64]⟩
abbrev SO : Shape := ⟨2, ![16384, 1]⟩

/-- The scale one half, kept as the pattern both programs write it with. -/
def half : EReal := Ideal.ofBits .f32 0x3F000000#32

/-- `p_k` of row `b`: the inner product of the row with column `k` of the factor matrix. -/
def proj (x : SX.Idx → EReal) (v : SV.Idx → EReal) (b : Fin 16384) (k : Fin 64) : EReal :=
  ∑ i : Fin 1024, x (ix2 b i) * v (ix2 i k)

/-- Row `b` of the result, factor by factor: half the sum over `k` of `p_k² − Σ_i x_i² v_{i,k}²`. -/
def rowByFactor (x : SX.Idx → EReal) (v : SV.Idx → EReal) (b : Fin 16384) : EReal :=
  half * ∑ k : Fin 64, (proj x v b k * proj x v b k
    - ∑ i : Fin 1024, (x (ix2 b i) * x (ix2 b i)) * (v (ix2 i k) * v (ix2 i k)))

/-- Row `b` of the result through the row sums of `v²`: half of `Σ_k p_k² − Σ_i x_i² · Σ_k v_{i,k}²`. -/
def rowByRowSums (x : SX.Idx → EReal) (v : SV.Idx → EReal) (b : Fin 16384) : EReal :=
  half * ((∑ k : Fin 64, proj x v b k * proj x v b k)
    - ∑ i : Fin 1024, (x (ix2 b i) * x (ix2 b i)) * ∑ k : Fin 64, v (ix2 i k) * v (ix2 i k))

/-- The result column from its rows. -/
def column (row : Fin 16384 → EReal) : SO.Idx → EReal := fun j => row (j 0)

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals, for any finite sets of features and factors. -/
theorem law_real {I K : Type} [Fintype I] [Fintype K] (x : I → ℝ) (v : I → K → ℝ) :
    (∑ k, (∑ i, x i * v i k) * (∑ i, x i * v i k)) - ∑ i, (x i * x i) * ∑ k, v i k * v i k
      = ∑ k, ((∑ i, x i * v i k) * (∑ i, x i * v i k) - ∑ i, (x i * x i) * (v i k * v i k)) := by
  rw [Finset.sum_sub_distrib]
  congr 1
  rw [Finset.sum_comm]
  exact Finset.sum_congr rfl fun i _ => Finset.mul_sum _ _ _

/-- The law on the extended reals, for arrays whose entries are all real numbers. -/
theorem rowByRowSums_eq_rowByFactor (x : SX.Idx → EReal) (v : SV.Idx → EReal)
    (hx : ∀ i, ∃ r : ℝ, x i = (r : EReal)) (hv : ∀ i, ∃ r : ℝ, v i = (r : EReal)) (b : Fin 16384) :
    rowByRowSums x v b = rowByFactor x v b := by
  choose xr hxr using hx
  choose vr hvr using hv
  have e := congrArg (fun r : ℝ => (r : EReal))
    (law_real (fun i : Fin 1024 => xr (ix2 b i)) (fun (i : Fin 1024) (k : Fin 64) => vr (ix2 i k)))
  simp only [EReal.coe_sub, coe_sum, EReal.coe_mul] at e
  unfold rowByRowSums rowByFactor proj
  simp only [hxr, hvr]
  exact congrArg (half * ·) e

end Cert.CrossTerm

end
-- ==== Proof.RefValue.lean ====
/-
  The reference, read index by index.

  The reference computes `p = x · v` (one matrix product), `p²` elementwise, a second matrix product
  `(x²) · (v²)`, their difference, the sum of that difference over the 64 factors, and half of it, kept as a
  column. At row `b` this is exactly `rowByFactor`: each matrix product at (b, k) is the sum over the 1024
  features of the products of the operands' entries, and the sum over factors starts from zero.
-/
import proofs.«119494_j18056042513139_2_alg».proof.Proof.Gen.ReferenceIdeal.Read
import proofs.«119494_j18056042513139_2_alg».proof.Proof.CrossLaw

noncomputable section

open scoped BigOperators

namespace Cert.CrossTerm.Ref

open Cert.ReferenceIdeal Cert.ReferenceIdeal.Read Idealize.ShloMosaic Idealize.ShloMosaic.ValueIdx Cert.CrossTerm

/-- Row `b`, factor `k`, feature `i`: the first product reads `x` at (b, i) … -/
theorem lidx_p (b : Fin 16384) (z : Fin 1) (k : Fin 64) (i : Fin 1024) :
    lidx_main_v0 (idx_main_v6 (idx_main_v7 (ix2 b z)) k) i = ix2 b i :=
  funext fun a => Fin.ext (by match a with | ⟨0, _⟩ => rfl | ⟨1, _⟩ => rfl)
/-- … and `v` at (i, k); -/
theorem ridx_p (b : Fin 16384) (z : Fin 1) (k : Fin 64) (i : Fin 1024) :
    ridx_main_v0 (idx_main_v6 (idx_main_v7 (ix2 b z)) k) i = ix2 i k :=
  funext fun a => Fin.ext (by match a with | ⟨0, _⟩ => rfl | ⟨1, _⟩ => rfl)
/-- the second product reads `x²` at (b, i) … -/
theorem lidx_q (b : Fin 16384) (z : Fin 1) (k : Fin 64) (i : Fin 1024) :
    lidx_main_v4 (idx_main_v6 (idx_main_v7 (ix2 b z)) k) i = ix2 b i :=
  funext fun a => Fin.ext (by match a with | ⟨0, _⟩ => rfl | ⟨1, _⟩ => rfl)
/-- … and `v²` at (i, k). -/
theorem ridx_q (b : Fin 16384) (z : Fin 1) (k : Fin 64) (i : Fin 1024) :
    ridx_main_v4 (idx_main_v6 (idx_main_v7 (ix2 b z)) k) i = ix2 i k :=
  funext fun a => Fin.ext (by match a with | ⟨0, _⟩ => rfl | ⟨1, _⟩ => rfl)

/-- The reference's result is the column of `rowByFactor`. -/
theorem result_eq (x : (⟨S16384x1024, .f32⟩ : BufTy).Contents (Elt Ideal)) (v : (⟨S1024x64, .f32⟩ : BufTy).Contents (Elt Ideal)) :
    val_main_v9 (F := Ideal) x v = column (rowByFactor x v) := by
  funext j
  obtain ⟨b, z, rfl⟩ : ∃ (b : Fin 16384) (z : Fin 1), j = ix2 b z := ⟨j 0, j 1, eq_ix2 j⟩
  rw [val_main_v9_apply, val_main_v8_apply, val_main_cst_0_apply, val_main_v7_apply, val_main_v6_apply, val_main_cst_apply]
  simp only [val_main_v5_apply, val_main_v1_apply, val_main_v0_apply, val_main_v4_apply, val_main_v2_apply, val_main_v3_apply,
    lidx_p, ridx_p, lidx_q, ridx_q, Ideal.mulf_def, Ideal.subf_def, Ideal.ofBits_def, Ideal.ofBits_zero_f32, zero_add]
  rfl

end Cert.CrossTerm.Ref

end
-- ==== Proof.KernelBody.lean ====
/-
  What one grid point's body computes, entry by entry.

  A point works on 2048 rows of the batch: `xb` (2048 × 1024), the whole factor matrix `w` (1024 × 64) and the
  row sums `s` of `w²` as a 1 × 1024 row. It forms the matrix product `xb · w` (the change of float format on
  the way in is the identity on extended reals), squares it and sums over the 64 factors; it multiplies
  `xb²` by `s` broadcast down the rows and sums over the 1024 features; and it stores half the difference. So
  entry `r` of the stored vector is

      half · ( Σ_k (Σ_i xb_{r,i} w_{i,k})² − Σ_i xb_{r,i}² · s_{0,i} ).
-/
import proofs.«119494_j18056042513139_2_alg».proof.Proof.Gen.KernelIdeal.Skeleton
import proofs.«119494_j18056042513139_2_alg».proof.Proof.CrossLaw
import Idealize.ShloMosaic.Lib.Pipeline.Value
import Idealize.ShloMosaic.Lib.ValueIdx
import Idealize.ShloMosaic.PureOps.Ideal.Laws

noncomputable section

open scoped BigOperators

namespace Cert.CrossTerm.Body

open Cert.KernelIdeal Cert.KernelIdeal.Gen Idealize.ShloMosaic Idealize.ShloMosaic.ValueIdx Cert.CrossTerm

/-- The operand entries the block product reads at output (j₀, j₁) and contraction index `q`: the left operand
    at (j₀, q) … -/
theorem lhs_row (j : S2048x64.Idx) (q : dot_S2048x1024_S1024x64_S2048x64_1_0_0_1_n_n.contr.Idx) :
    (dot_S2048x1024_S1024x64_S2048x64_1_0_0_1_n_n.lhsIdx j q 0).val = (j 0).val := by
  unfold DotDims.lhsIdx
  rw [dif_neg (show ¬(0 : Fin S2048x1024.rank) ∈ dot_S2048x1024_S1024x64_S2048x64_1_0_0_1_n_n.lhsBatch by decide),
    dif_pos (show (0 : Fin S2048x1024.rank) ∈ dot_S2048x1024_S1024x64_S2048x64_1_0_0_1_n_n.lhsNonContracting by decide)]
  rfl
theorem lhs_col (j : S2048x64.Idx) (q : dot_S2048x1024_S1024x64_S2048x64_1_0_0_1_n_n.contr.Idx) :
    (dot_S2048x1024_S1024x64_S2048x64_1_0_0_1_n_n.lhsIdx j q 1).val = (q ⟨0, by decide⟩).val :=
  dot_S2048x1024_S1024x64_S2048x64_1_0_0_1_n_n.lhsIdx_val_of_single rfl j q
/-- … and the right operand at (q, j₁). -/
theorem rhs_row (j : S2048x64.Idx) (q : dot_S2048x1024_S1024x64_S2048x64_1_0_0_1_n_n.contr.Idx) :
    (dot_S2048x1024_S1024x64_S2048x64_1_0_0_1_n_n.rhsIdx j q 0).val = (q ⟨0, by decide⟩).val :=
  dot_S2048x1024_S1024x64_S2048x64_1_0_0_1_n_n.rhsIdx_val_of_single rfl j q
theorem rhs_col (j : S2048x64.Idx) (q : dot_S2048x1024_S1024x64_S2048x64_1_0_0_1_n_n.contr.Idx) :
    (dot_S2048x1024_S1024x64_S2048x64_1_0_0_1_n_n.rhsIdx j q 1).val = (j 1).val := by
  unfold DotDims.rhsIdx
  rw [dif_neg (show ¬(1 : Fin S1024x64.rank) ∈ dot_S2048x1024_S1024x64_S2048x64_1_0_0_1_n_n.rhsBatch by decide),
    dif_pos (show (1 : Fin S1024x64.rank) ∈ dot_S2048x1024_S1024x64_S2048x64_1_0_0_1_n_n.rhsNonContracting by decide)]
  rfl

/-- The matrix product of a 2048 × 1024 block with the 1024 × 64 matrix, started from zero, at (r, k): the sum
    over the 1024 features of the products of the entries. -/
theorem blockProduct_apply (a : FVec Ideal S2048x1024 .bf16) (w : FVec Ideal S1024x64 .bf16) (r : Fin 2048) (k : Fin 64) :
    matmul dot_S2048x1024_S1024x64_S2048x64_1_0_0_1_n_n none a w (constant S2048x64 .f32 0x00000000#32) (ix2 r k)
      = ∑ i : Fin 1024, a (ix2 r i) * w (ix2 i k) := by
  simp only [matmul]
  rw [Ideal.matmul_constant_zero_apply,
    ← Equiv.sum_comp (contrEquiv1 dot_S2048x1024_S1024x64_S2048x64_1_0_0_1_n_n 1024 rfl rfl).symm]
  refine Finset.sum_congr rfl fun i _ => ?_
  have hi := contrEquiv1_symm_val dot_S2048x1024_S1024x64_S2048x64_1_0_0_1_n_n 1024 rfl rfl i
  have el : dot_S2048x1024_S1024x64_S2048x64_1_0_0_1_n_n.lhsIdx (ix2 r k)
      ((contrEquiv1 dot_S2048x1024_S1024x64_S2048x64_1_0_0_1_n_n 1024 rfl rfl).symm i) = ix2 r i :=
    funext fun c => Fin.ext (by
      match c with
      | ⟨0, _⟩ => exact lhs_row _ _
      | ⟨1, _⟩ => exact (lhs_col _ _).trans hi)
  have er : dot_S2048x1024_S1024x64_S2048x64_1_0_0_1_n_n.rhsIdx (ix2 r k)
      ((contrEquiv1 dot_S2048x1024_S1024x64_S2048x64_1_0_0_1_n_n 1024 rfl rfl).symm i) = ix2 i k :=
    funext fun c => Fin.ext (by
      match c with
      | ⟨0, _⟩ => exact (rhs_row _ _).trans hi
      | ⟨1, _⟩ => exact rhs_col _ _)
  rw [el, er]

/-- A sum over the 64 factors of a 2048 × 64 vector, at row `r`. -/
theorem sumOverFactors_apply (u : FVec Ideal S2048x64 .f32) (hφ : FKind.Formats .f32)
    (hacc : (0x00000000#32 : BitVec 32) = FKind.add.neutral .f32 hφ) (r : Fin 2048) :
    multiReduction .add [1] S2048 u 0x00000000#32 reduces_S2048x64_S2048 hφ hacc (ix1 r) = ∑ k : Fin 64, u (ix2 r k) := by
  refine (Ideal.multiReduction_add_single u _ reduces_S2048x64_S2048 hφ hacc (ix1 r)).trans ?_
  show ∑ k : Fin 64, u (reduces_S2048x64_S2048.lift (ix1 r) k) = _
  refine Finset.sum_congr rfl fun k _ => congrArg u ?_
  exact funext fun c => Fin.ext (by match c with | ⟨0, _⟩ => rfl | ⟨1, _⟩ => rfl)

/-- A sum over the 1024 features of a 2048 × 1024 vector, at row `r`. -/
theorem sumOverFeatures_apply (u : FVec Ideal S2048x1024 .f32) (hφ : FKind.Formats .f32)
    (hacc : (0x00000000#32 : BitVec 32) = FKind.add.neutral .f32 hφ) (r : Fin 2048) :
    multiReduction .add [1] S2048 u 0x00000000#32 reduces_S2048x1024_S2048 hφ hacc (ix1 r) = ∑ i : Fin 1024, u (ix2 r i) := by
  refine (Ideal.multiReduction_add_single u _ reduces_S2048x1024_S2048 hφ hacc (ix1 r)).trans ?_
  show ∑ i : Fin 1024, u (reduces_S2048x1024_S2048.lift (ix1 r) i) = _
  refine Finset.sum_congr rfl fun i _ => congrArg u ?_
  exact funext fun c => Fin.ext (by match c with | ⟨0, _⟩ => rfl | ⟨1, _⟩ => rfl)

/-- The 1 × 1024 row broadcast down the 2048 rows reads, at (r, i), the row's entry `i`. -/
theorem rowBroadcast_apply (s : FVec Ideal S1x1024 .f32) (r : Fin 2048) (i : Fin 1024) :
    broadcastTo S2048x1024 (shapeCast S1x1024 s shapeCasts_S1x1024_S1x1024) broadcasts_S1x1024_S2048x1024 (ix2 r i)
      = s (ix2 (0 : Fin 1) i) := by
  rw [shapeCast_self]
  refine broadcastTo_apply s _ (ix2 r i) (ix2 (0 : Fin 1) i) fun c => ?_
  match c with
  | ⟨0, _⟩ => rfl
  | ⟨1, _⟩ => rfl

/-- Entry `r` of what a point stores, from the three blocks it loads. -/
theorem stored_apply (xb : Vec Ideal S2048x1024 .f32) (w : Vec Ideal S1024x64 .f32) (s : Vec Ideal S1x1024 .f32) (r : Fin 2048) :
    k0_pay1 (F := Ideal) xb w s (ix1 r)
      = half * ((∑ k : Fin 64, (∑ i : Fin 1024, xb (ix2 r i) * w (ix2 i k)) * (∑ i : Fin 1024, xb (ix2 r i) * w (ix2 i k)))
          - ∑ i : Fin 1024, (xb (ix2 r i) * xb (ix2 r i)) * s (ix2 (0 : Fin 1) i)) := by
  unfold k0_pay1
  simp only [mulf_apply, subf_apply, broadcast_apply]
  refine congrArg₂ (fun p q : EReal => half * (p - q)) ?_ ?_
  · refine (sumOverFactors_apply _ _ _ r).trans (Finset.sum_congr rfl fun k _ => ?_)
    exact congrArg₂ (· * ·) (blockProduct_apply _ _ r k) (blockProduct_apply _ _ r k)
  · refine (sumOverFeatures_apply _ _ _ r).trans (Finset.sum_congr rfl fun i _ => ?_)
    exact congrArg (xb (ix2 r i) * xb (ix2 r i) * ·) (rowBroadcast_apply s r i)

end Cert.CrossTerm.Body

end
-- ==== Proof.KernelArray.lean ====
/-
  The kernel's output vector after the run.

  Before the region the host squares the factor matrix, sums each of its 1024 rows over the 64 factors (from
  zero) and lays the sums out as a 1 × 1024 row `s`. The grid has 8 points; point `t` works on rows
  `2048·t … 2048·t + 2047` of the batch, with the whole factor matrix and the whole row `s`, and writes entries
  `2048·t … 2048·t + 2047` of the output vector. Entry `2048·t + r` is therefore `rowByRowSums` at that row of
  the batch, and since the 8 blocks tile the 16384 entries the whole vector is `rowByRowSums` row by row.
-/
import proofs.«119494_j18056042513139_2_alg».proof.Proof.Gen.KernelIdeal.Frame
import proofs.«119494_j18056042513139_2_alg».proof.Proof.KernelBody
import Idealize.ShloMosaic.Lib.Pipeline.Value
import Idealize.ShloMosaic.Lib.StableHlo.Run

set_option maxRecDepth 16384

noncomputable section

open scoped BigOperators

namespace Cert.CrossTerm.Kernel

open Cert.KernelIdeal Cert.KernelIdeal.Gen Idealize.ShloMosaic Idealize.ShloMosaic.TcCoe Idealize.SL.Sem
open Idealize.ShloMosaic.ValueIdx Cert.CrossTerm
open Idealize.ShloMosaic.Pipeline (Dat)

variable (m : (ℓ : Loc nD τ sig) → Buf (Elt Ideal) ℓ) (ρ : Dev nD → PrngReg)

/-- The two argument arrays on core `c`, as arrays of extended reals: the batch of rows and the factor matrix. -/
abbrev argX (c : Dev nD) : SX.Idx → EReal := m ((c : Thread nD τ).loc main_arg0)
abbrev argV (c : Dev nD) : SV.Idx → EReal := m ((c : Thread nD τ).loc main_arg1)

/-! ## The row sums the host prepares -/

/-- The 1 × 1024 row the region finds: the reshaped row sums (from zero) of the squared factor matrix. -/
theorem rowSums_eq (c : Dev nD) :
    (V m c main_v2 : S1x1024.Idx → EReal)
      = shapeCast S1x1024 (Host.reduceAdd (F := Ideal) (mulf (m ((c : Thread nD τ).loc main_arg1)) (m ((c : Thread nD τ).loc main_arg1)))
          (constant (F := Ideal) S_ .f32 0x00000000#32) reducesTo_S1024x64_S1024_d1 h_S_) shapeCasts_S1024_S1x1024 := by
  show StableHlo.after hostOps0 (fun b => m (c, b)) (Proc.devRef .tc main_v2) = _
  after_results
  rfl

/-- Its entry `i` is the sum over the 64 factors of the squares of row `i` of the factor matrix. -/
theorem rowSums_apply (c : Dev nD) (i : Fin 1024) :
    (V m c main_v2 : S1x1024.Idx → EReal) (ix2 (0 : Fin 1) i)
      = ∑ k : Fin 64, argV m c (ix2 i k) * argV m c (ix2 i k) := by
  rw [rowSums_eq]
  show shapeCast S1x1024 (Host.reduceAdd (F := Ideal) (mulf (argV m c) (argV m c))
      (constant (F := Ideal) S_ .f32 0x00000000#32) reducesTo_S1024x64_S1024_d1 h_S_) shapeCasts_S1024_S1x1024 (ix2 (0 : Fin 1) i) = _
  generalize argV m c = v
  rw [shapeCast_apply _ shapeCasts_S1024_S1x1024 (ix2 (0 : Fin 1) i) (ix1 i)
    (by rw [Shape.rowMajor_val_one, Shape.rowMajor_val_two]; show i.val = 0 * 1024 + i.val; omega)]
  simp only [Host.reduceAdd, Ideal.hostReduceAdd_def]
  rw [Ideal.hostReduceAdd_single reducesTo_S1024x64_S1024_d1 (by decide)]
  show Ideal.ofBits .f32 0x00000000#32 + _ = _
  rw [Ideal.ofBits_zero_f32, zero_add]
  refine Finset.sum_congr rfl fun k _ => ?_
  show v _ * v _ = _
  have e : (Shape.Reduces.lift (s := S1024x64) (t := S1024) (by decide) (ix1 i) k) = ix2 i k :=
    funext fun a => Fin.ext (by match a with | ⟨0, _⟩ => rfl | ⟨1, _⟩ => rfl)
  rw [e]
  rfl

/-! ## One point's entry, from its three blocks -/

/-- If the batch block's rows are rows of the batch `X` starting where entry `y` sits at row `b`, the factor
    block is the factor matrix `Vm`, and the row block holds the row sums of `Vm²`, then entry `y` of what the
    point stores is `rowByRowSums X Vm b`. -/
theorem point_entry (xb : Vec Ideal S2048x1024 .f32) (w : Vec Ideal S1024x64 .f32) (s : Vec Ideal S1x1024 .f32)
    (X : SX.Idx → EReal) (Vm : SV.Idx → EReal) (y : S2048.Idx) (b : Fin 16384)
    (hx : ∀ (r : Fin 2048) (i : Fin 1024), r.val = (y 0).val → xb (ix2 r i) = X (ix2 b i))
    (hw : ∀ (i : Fin 1024) (k : Fin 64), w (ix2 i k) = Vm (ix2 i k))
    (hs : ∀ i : Fin 1024, s (ix2 (0 : Fin 1) i) = ∑ k : Fin 64, Vm (ix2 i k) * Vm (ix2 i k)) :
    k0_pay1 (F := Ideal) xb w s y = rowByRowSums X Vm b := by
  obtain ⟨r, rfl⟩ : ∃ r : Fin 2048, y = ix1 r := ⟨y 0, eq_ix1 y⟩
  rw [Body.stored_apply]
  unfold rowByRowSums proj
  simp only [fun i => hx r i rfl, hw, hs]

/-! ## What a point writes back, and the vector after the run -/

theorem zeros1 : (![0] : Fin 1 → Nat) = fun _ => 0 := funext fun a => by fin_cases a; rfl
theorem zeros2 : (![0, 0] : Fin 2 → Nat) = fun _ => 0 := funext fun a => by fin_cases a <;> rfl

/-- The output vector: `rowByRowSums` of the two argument arrays, row by row. -/
abbrev outVec (c : Dev nD) : S16384.Idx → EReal := fun i => rowByRowSums (argX m c) (argV m c) (i 0)

/-- The printed index maps over the 8 points: the batch window moves with the output window along the rows and
    stays at column block 0; the factor matrix and the row of row sums stay at block (0, 0). -/
theorem idx_facts : ∀ t : Fin cfg0.N, win0_0.index t (0 : Fin 2) = win0_3.index t (0 : Fin 1)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) ≤ 7 :=
  (by decide +kernel : ∀ t : Fin grid0.N, _)

/-- Every one of the 8 output blocks is some point's. -/
theorem idx_onto : ∀ q : Fin 8, ∃ t : Fin cfg0.N, win0_3.index t = ![q.val] :=
  (by decide +kernel : ∀ q : Fin 8, ∃ t : Fin grid0.N, win0_3.index t = ![q.val])

/-- What point `t` writes back is block `t` of the output vector. -/
theorem flushed_eq (c : Dev nD) (t : Fin cfg0.N) :
    (dats m 0 c).flushed 3 t = ((cfg0.win 3).blk t).view.read (Elt Ideal) (outVec m c) := by
  show (cfg0.win 3).cut (grid0.coords t) ((dats m 0 c).after 3 t) = _
  rw [after0_3]
  unfold out0_3
  rw [View.canon_unit_zero zeros1]
  simp only [View.ld_unit_zero (S := S2048x1024) zeros2, View.ld_unit_zero (S := S1024x64) zeros2,
    View.ld_unit_zero (S := S1x1024) zeros2]
  obtain ⟨e0, e1, e2, e3, e4, e5, e6⟩ := idx_facts t
  funext y
  show k0_pay1 (F := Ideal) (iblk m c 0 t) (iblk m c 1 t) (iblk m c 2 t) y
      = rowByRowSums (argX m c) (argV m c) ((((cfg0.win 3).blk t).view.emb y) 0)
  refine point_entry (iblk m c 0 t) (iblk m c 1 t) (iblk m c 2 t) (argX m c) (argV m c) y
    ((((cfg0.win 3).blk t).view.emb y) 0) ?_ ?_ ?_
  · intro r i hr
    show V m c main_arg0 (((cfg0.win 0).blk t).view.emb (ix2 r i)) = argX m c (ix2 ((((cfg0.win 3).blk t).view.emb y) 0) i)
    rw [V_main_arg0]
    refine congrArg (argX m c) (funext fun a => Fin.ext ?_)
    match a with
    | ⟨0, _⟩ =>
      show win0_0.index t (0 : Fin 2) * 2048 + 1 * r.val = win0_3.index t (0 : Fin 1) * 2048 + 1 * (y 0).val
      omega
    | ⟨1, _⟩ =>
      show win0_0.index t (1 : Fin 2) * 1024 + 1 * i.val = i.val
      omega
  · intro i k
    show V m c main_arg1 (((cfg0.win 1).blk t).view.emb (ix2 i k)) = argV m c (ix2 i k)
    rw [V_main_arg1]
    refine congrArg (argV m c) (funext fun a => Fin.ext ?_)
    match a with
    | ⟨0, _⟩ =>
      show win0_1.index t (0 : Fin 2) * 1024 + 1 * i.val = i.val
      omega
    | ⟨1, _⟩ =>
      show win0_1.index t (1 : Fin 2) * 64 + 1 * k.val = k.val
      omega
  · intro i
    refine Eq.trans ?_ (rowSums_apply m c i)
    show V m c main_v2 (((cfg0.win 2).blk t).view.emb (ix2 (0 : Fin 1) i)) = V m c main_v2 (ix2 (0 : Fin 1) i)
    refine congrArg (V m c main_v2) (funext fun a => Fin.ext ?_)
    match a with
    | ⟨0, _⟩ =>
      show win0_2.index t (0 : Fin 2) * 1 + 1 * 0 = 0
      omega
    | ⟨1, _⟩ =>
      show win0_2.index t (1 : Fin 2) * 1024 + 1 * i.val = i.val
      omega

/-- An entry of the output vector is in point `t`'s block iff it lies in the block's range of 2048 entries. -/
theorem mem_blk (t : Fin cfg0.N) (i : S16384.Idx) :
    i ∈ ((cfg0.win 3).blk t).view.set ↔ ∀ a : Fin 1, win0_3.index t a * S2048.size a ≤ (i a).val
      ∧ (i a).val < win0_3.index t a * S2048.size a + S2048.size a := by
  show i ∈ ((View.whole main_v3).slice (win0_3.rect t)).set ↔ _
  rw [View.set_slice_whole, Rect.mem_set_unit]
  exact Iff.rfl

/-- Entry `i` lies in the block of the point that handles block `i / 2048`. -/
theorem cover (i : S16384.Idx) :
    ∃ t : Fin cfg0.N, (cfg0.win 3).flush t = true ∧ i ∈ ((cfg0.win 3).blk t).view.set := by
  have hi : (i 0).val < 16384 := (i 0).isLt
  obtain ⟨t, ht⟩ := idx_onto ⟨(i 0).val / 2048, by omega⟩
  have q : win0_3.index t (0 : Fin 1) = (i 0).val / 2048 := congrFun ht 0
  refine ⟨t, flush0_3 t, ?_⟩
  rw [mem_blk]
  intro a
  match a with
  | ⟨0, _⟩ =>
    show win0_3.index t (0 : Fin 1) * 2048 ≤ (i 0).val ∧ (i 0).val < win0_3.index t (0 : Fin 1) * 2048 + 2048
    omega

/-- The output vector after the run. -/
theorem outVec_eq (c : Dev nD) : (dats m 0 c).arrAt 3 cfg0.N = outVec m c :=
  (dats m 0 c).arrAt_eq_of_cover 3 (outVec m c) (fun t _ => flushed_eq m c t) cover

end Cert.CrossTerm.Kernel

end
-- ==== Proof.KernelRun.lean ====
/-
  The kernel's result after the whole program.

  After the region the host reshapes the 16384-entry output vector into a 16384 × 1 column, so entry (b, 0) of
  the result is entry `b` of the vector: the result is the column of `rowByRowSums`. The two argument arrays
  are staged by input windows and never written back.
-/
import proofs.«119494_j18056042513139_2_alg».proof.Proof.KernelArray

set_option maxRecDepth 16384

noncomputable section

open scoped BigOperators

namespace Cert.CrossTerm.Kernel

open Cert.KernelIdeal Cert.KernelIdeal.Gen Idealize.ShloMosaic Idealize.ShloMosaic.TcCoe Idealize.SL.Sem
open Idealize.ShloMosaic.ValueIdx Cert.CrossTerm
open Idealize.ShloMosaic.Pipeline (Dat)

variable (m : (ℓ : Loc nD τ sig) → Buf (Elt Ideal) ℓ) (ρ : Dev nD → PrngReg)

/-- The result buffer is no window's array: the region leaves it to the lines after it. -/
theorem result_rest : main_v4 ∈ Pipeline.restRefs sig (cfgs 0).spec :=
  Pipeline.mem_restRefs_of main_v4 rfl (by decide)

/-- After the lines that follow the region the result buffer holds the output vector, reshaped. -/
theorem tail_eq (c : Dev nD) :
    Pipeline.afterTail₀ cfgs (dats m) 0 (V0 m) [hostOps1] c main_v4
      = shapeCast S16384x1 ((dats m 0 c).arrAt 3 cfg0.N) shapeCasts_S16384_S16384x1 := by
  unfold Pipeline.afterTail₀
  show StableHlo.after hostOps1 _ (Proc.devRef .tc main_v4) = _
  after_results
  rw [Pipeline.withArrays_arr spec0 launch0.win.arr_inj c _ _ 3]
  rfl

/-- The reshaped output vector is the column of `rowByRowSums`. -/
theorem column_eq (c : Dev nD) :
    shapeCast S16384x1 ((dats m 0 c).arrAt 3 cfg0.N) shapeCasts_S16384_S16384x1
      = column (rowByRowSums (argX m c) (argV m c)) := by
  rw [outVec_eq]
  funext j
  obtain ⟨b, z, rfl⟩ : ∃ (b : Fin 16384) (z : Fin 1), j = ix2 b z := ⟨j 0, j 1, eq_ix2 j⟩
  rw [shapeCast_apply (outVec m c) shapeCasts_S16384_S16384x1 (ix2 b z) (ix1 b)
    (by rw [Shape.rowMajor_val_one, Shape.rowMajor_val_two]; show b.val = b.val * 1 + z.val; have := z.isLt; omega)]
  rfl

/-- The kernel's run: it ends with the result at the column of `rowByRowSums` of the arguments, which are
    unchanged. -/
theorem run : θ_run defs (onTc (τ := τ) (main (F := Ideal))) ⟨m, fun _ => 0, ρ⟩ fun r => ∀ c : Dev nD,
      r.2.mem ((c.tc : Thread nD τ).loc main_v4) = column (rowByRowSums (argX m c) (argV m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v4 result_rest).trans ((tail_eq m c).trans (column_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.CrossTerm.Kernel

end
-- ==== Proof.Finite.lean ====
/-
  Finite inputs are real numbers.

  The precondition says, of both argument arrays, that every entry's absolute value is below `+inf`. On the
  extended reals `|a| = max a (−a)` is `+inf` exactly at the two infinities, so the precondition says that
  every entry is a real number. That is what the algebraic law between the two arrangements of the cross
  term needs.
-/
import proofs.«119494_j18056042513139_2_alg».proof.Pre_finite_inputs
import proofs.«119494_j18056042513139_2_alg».proof.Proof.Gen.Pre_finite_inputs
import Idealize.ShloMosaic.Lib.ReduceAll
import Idealize.ShloMosaic.Lib.ValueIdx
import Idealize.ShloMosaic.PureOps.Ideal

noncomputable section

namespace Cert.CrossTerm.Finite

open Idealize.ShloMosaic Cert.Pre_finite_inputs

instance : Subsingleton S_.Idx := ⟨fun a b => funext fun d => d.elim0⟩

/-- The pattern the precondition compares against is `+inf`. -/
theorem inf_pattern : Ideal.ofBits .f32 0x7F800000#32 = ⊤ := by simp [Ideal.ofBits, Ideal.ieee]

/-- An extended real whose absolute value is below `+inf` is a real number. -/
theorem real_of_abs_lt (a : EReal)
    (h : Ideal.cmp .olt (max a (-a)) (Ideal.ofBits .f32 0x7F800000#32) = 1#1) : ∃ r : ℝ, a = (r : EReal) := by
  rw [inf_pattern] at h
  induction a using EReal.rec with
  | bot => simp [Ideal.cmp] at h
  | top => simp [Ideal.cmp] at h
  | coe r => exact ⟨r, rfl⟩

/-- Under the precondition every entry of the batch and of the factor matrix is a real number. -/
theorem real_of_pre (x : FVec Ideal S16384x1024 .f32) (v : FVec Ideal S1024x64 .f32)
    (h : Cert.Pre_finite_inputs.fn (F := Ideal) x v = fun _ => 1#1) :
    (∀ i, ∃ r : ℝ, x i = (r : EReal)) ∧ (∀ i, ∃ r : ℝ, v i = (r : EReal)) := by
  have h0 := congrFun h ValueIdx.ix0
  dsimp only [Cert.Pre_finite_inputs.fn] at h0
  obtain ⟨hx, hv⟩ := IntOp.andi_eq_one.1 h0
  exact ⟨fun i => real_of_abs_lt (x i) (Host.reduce_andi_all _ _ _ _ _ hx i),
    fun i => real_of_abs_lt (v i) (Host.reduce_andi_all _ _ _ _ _ hv i)⟩

end Cert.CrossTerm.Finite

end
-- ==== Proof.lean ====
/-
  The factorization-machine cross term: a tiled kernel against its plain reference, over the extended reals.

  Both programs take a batch `x` (16384 × 1024) and a factor matrix `v` (1024 × 64) and return a 16384 × 1
  column. With `p_k = Σ_i x_{b,i} v_{i,k}`, the reference's entry at row `b` is

      half · Σ_k ( p_k² − Σ_i x_{b,i}² v_{i,k}² ),

  a second matrix product `(x²)·(v²)` supplying the subtracted term. The kernel avoids that second product: the
  host first forms the row sums `s_i = Σ_k v_{i,k}²`, and each of 8 grid points, on 2048 rows of the batch,
  computes

      half · ( Σ_k p_k² − Σ_i x_{b,i}² s_i ).

  Read exactly (a change of float format is the identity, every sum is the exact sum) the kernel's result is
  the second formula at every row (`Kernel.run`) and the reference's the first (`Ref.result_eq`). The two agree
  when all entries are real numbers (`rowByRowSums_eq_rowByFactor`): split the sum of differences, exchange
  the two sums over (i, k), and take `x_{b,i}²` out of the inner sum. These steps fail at the infinities, which
  is where the precondition is used: finite inputs are real numbers (`Finite.real_of_pre`).

  Each program terminates without fault and leaves its arguments unchanged; the idealization rewrote no
  operation of the kernel, so there is nothing to preserve.
-/
import proofs.«119494_j18056042513139_2_alg».proof.Defs
import proofs.«119494_j18056042513139_2_alg».proof.Proof.Gen.Kernel
import proofs.«119494_j18056042513139_2_alg».proof.Proof.Gen.Kernel.Skeleton
import proofs.«119494_j18056042513139_2_alg».proof.Proof.Gen.Kernel.Launch
import proofs.«119494_j18056042513139_2_alg».proof.Proof.Gen.Kernel.Points
import proofs.«119494_j18056042513139_2_alg».proof.Proof.Gen.Kernel.Frame
import proofs.«119494_j18056042513139_2_alg».proof.Proof.Gen.KernelIdeal
import proofs.«119494_j18056042513139_2_alg».proof.Proof.Gen.KernelIdeal.Skeleton
import proofs.«119494_j18056042513139_2_alg».proof.Proof.Gen.KernelIdeal.Launch
import proofs.«119494_j18056042513139_2_alg».proof.Proof.Gen.KernelIdeal.Points
import proofs.«119494_j18056042513139_2_alg».proof.Proof.Gen.KernelIdeal.Frame
import proofs.«119494_j18056042513139_2_alg».proof.Proof.Gen.ReferenceIdeal
import proofs.«119494_j18056042513139_2_alg».proof.Proof.Gen.ReferenceIdeal.Run
import proofs.«119494_j18056042513139_2_alg».proof.Proof.Gen.ReferenceIdeal.Read
import proofs.«119494_j18056042513139_2_alg».proof.Proof.Gen.Pre_finite_inputs
import proofs.«119494_j18056042513139_2_alg».proof.Proof.CrossLaw
import proofs.«119494_j18056042513139_2_alg».proof.Proof.RefValue
import proofs.«119494_j18056042513139_2_alg».proof.Proof.KernelRun
import proofs.«119494_j18056042513139_2_alg».proof.Proof.Finite
import Idealize.ShloMosaic.Adequacy
import Idealize.ShloMosaic.Init

noncomputable section

namespace Cert.Proof

open Idealize.ShloMosaic Idealize.SL.Sem Cert.CrossTerm

/-- The kernel on machine words terminates without fault and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- From memories agreeing on the arguments both programs end with the column of `rowByRowSums`: the kernel
    computes it, and the reference's `rowByFactor` equals it because finite inputs are real numbers. -/
theorem algebraic : Cert.algebraic_KernelIdeal_ReferenceIdeal := by
  intro m ρ m' ρ' hpre hagree
  refine ⟨fun c => column (rowByRowSums (Kernel.argX m c) (Kernel.argV m c)), Kernel.run m ρ, ?_⟩
  refine (θ_run Cert.ReferenceIdeal.defs _ _).mono
    (fun _ h c => ⟨(h c).1.trans ((Cert.ReferenceIdeal.Read.val_main_v9_eq _ _).trans ?_), (h c).2⟩)
    (Cert.ReferenceIdeal.Value.run (F := Ideal) m' ρ')
  rw [Ref.result_eq, (hagree c).1, (hagree c).2]
  obtain ⟨hx, hv⟩ := Finite.real_of_pre _ _ (hpre c)
  funext j
  exact (rowByRowSums_eq_rowByFactor _ _ hx hv (j 0)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
